-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x2048 .f32) (main_arg8 : FVec F S2048 .f32) (main_arg9 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048 .f32) (main_arg9 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S2048x2048 .f32) (main_arg5 : FVec F S2048x2048 .f32) (main_arg6 : FVec F S2048x2048 .f32) (main_arg7 : FVec F S2048x2048 .f32) (main_arg8 : FVec F S2048 .f32) (main_arg9 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S32x2048 : Shape := ⟨2, ![32, 2048]⟩

abbrev nBuf : Space → Nat
  | .hbm => 20
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S1x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S2048x2048, .bf16⟩
  | .local _ .vmem, ⟨9, _⟩ => ⟨S2048x2048, .bf16⟩
  | .local _ .vmem, ⟨10, _⟩ => ⟨S2048x2048, .bf16⟩
  | .local _ .vmem, ⟨11, _⟩ => ⟨S2048x2048, .bf16⟩
  | .local _ .vmem, ⟨12, _⟩ => ⟨S1x2048, .f32⟩
  | .local _ .vmem, ⟨13, _⟩ => ⟨S1x2048, .f32⟩
  | .local _ .vmem, ⟨14, _⟩ => ⟨S32x2048, .f32⟩
  | .local _ .vmem, ⟨15, _⟩ => ⟨S32x2048, .f32⟩
  | .local _ .vmem, ⟨16, _⟩ => ⟨S32x2048, .f32⟩
  | .local _ .vmem, ⟨17, _⟩ => ⟨S32x2048, .f32⟩
  | .local _ .vmem, ⟨18, _⟩ => ⟨S32x2048, .f32⟩
  | .local _ .vmem, ⟨19, _⟩ => ⟨S32x2048, .f32⟩
  | .local _ .vmem, ⟨20, _⟩ => ⟨S32x2048, .f32⟩
  | .local _ .vmem, ⟨21, _⟩ => ⟨S32x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  shapeCasts_S2048_S1x2048 : S2048.ShapeCasts S1x2048
  inb_S32x2048_S32x2048_0_0 : ∀ a, (![0, 0] : Fin 2 → Nat) a + S32x2048.size a ≤ S32x2048.size a
  h_S32x2048 : 0 < S32x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  dot_S32x2048_S2048x2048_S32x2048_1_1_0_0_n_n_wf : DotDims.WF S32x2048 S2048x2048 S32x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S4096x2048.size a
  hwx0_0 : ∀ i : grid0.Coords, EltTy.bits .f32 = 32 ∨ (Rect.block (s := S4096x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S4096x2048.size a
  hwx0_1 : ∀ i : grid0.Coords, EltTy.bits .f32 = 32 ∨ (Rect.block (s := S4096x2048) S32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S4096x2048.size a
  hwx0_2 : ∀ i : grid0.Coords, EltTy.bits .f32 = 32 ∨ (Rect.block (s := S4096x2048) S32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x2048.size a ≤ S4096x2048.size a
  hwx0_3 : ∀ i : grid0.Coords, EltTy.bits .f32 = 32 ∨ (Rect.block (s := S4096x2048) S32x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x2048.size a ≤ S4096x2048.size a
  hwx0_10 : ∀ i : grid0.Coords, EltTy.bits .f32 = 32 ∨ (Rect.block (s := S4096x2048) S32x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x2048.size a ≤ S4096x2048.size a
  hwx0_11 : ∀ i : grid0.Coords, EltTy.bits .f32 = 32 ∨ (Rect.block (s := S4096x2048) S32x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x2048.size a ≤ S4096x2048.size a
  hwx0_12 : ∀ i : grid0.Coords, EltTy.bits .f32 = 32 ∨ (Rect.block (s := S4096x2048) S32x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x2048.size a ≤ S4096x2048.size a
  hwx0_13 : ∀ i : grid0.Coords, EltTy.bits .f32 = 32 ∨ (Rect.block (s := S4096x2048) S32x2048.size (cc0_transform_13 i) (hinb0_13 i)).WholeWords (EltTy.packing .f32)

variable [Facts₀]

def dot_S32x2048_S2048x2048_S32x2048_1_1_0_0_n_n : DotDims S32x2048 S2048x2048 S32x2048 where
  lhsContracting := [1]
  rhsContracting := [1]
  lhsNonContracting := [0]
  rhsNonContracting := [0]
  lhsBatch := []
  rhsBatch := []
  wf := dot_S32x2048_S2048x2048_S32x2048_1_1_0_0_n_n_wf

abbrev win0_0 : Pipeline.Window sig grid0 :=
  Pipeline.Window.ofSpec (Memref.whole main_arg0) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S32x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S32x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_2) S32x2048.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v6_3) S32x2048.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S2048x2048, .f32⟩
  | .hbm, ⟨21, _⟩ => ⟨S4096x2048, .f32⟩
  | .hbm, ⟨22, _⟩ => ⟨S2048x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S2048x2048, .f32⟩
  | .hbm, ⟨59, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S_S4096x2048 : S_.BroadcastsInDim S4096x2048 (![] : Fin 0 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Wkv.lean ====
/-
  One time step of the RWKV cell's "WKV" recurrence over a batch of 4096 rows of width 2048, written as functions of the
  argument arrays on the extended reals, one array entry at a time.

  From the input rows x three projections are taken against square weight matrices, each entry a plain sum over the
  row: r = x·w_rᵀ, k = x·w_kᵀ, v = x·w_vᵀ. With the running state (a numerator n, a denominator d and a log-scale s per
  entry) and two per-column vectors (the bonus w_u and the decay w_w):

    * the state moves on to   s' = max (s + w_w) k,
                              n' = e^(s + w_w − s')·n + e^(k − s')·v,
                              d' = e^(s + w_w − s')·d + e^(k − s');
    * the output row is       (σ(r) · (nₜ / dₜ))·w_oᵀ, where with sₜ = max s (w_u + k)
                              nₜ = e^(s − sₜ)·n + e^(w_u + k − sₜ)·v,   dₜ = e^(s − sₜ)·d + e^(w_u + k − sₜ),
      and σ is the logistic function 1 / (1 + e^(−r)).

  Everything is kept in the order of operations both programs use, so no law of arithmetic is needed to compare them:
  sums of products stay sums of products, and the quotient stays the extended reals' total quotient.
-/
import Idealize.ShloMosaic.Lib.ValueIdx
import Idealize.ShloMosaic.PureOps.Ideal

noncomputable section

open scoped BigOperators

namespace Cert.Wkv

open Idealize.ShloMosaic Idealize.ShloMosaic.ValueIdx

/-- A batch: 4096 rows of width 2048. -/
abbrev Rows : Shape := ⟨2, ![4096, 2048]⟩
/-- A square weight matrix of side 2048. -/
abbrev Sq : Shape := ⟨2, ![2048, 2048]⟩
/-- One value per column. -/
abbrev Lane : Shape := ⟨1, ![2048]⟩

/-! ## One entry of the state update and of the gated quotient -/

/-- The next log-scale: the larger of the decayed scale and the key. -/
def scaleNext (s k ww : EReal) : EReal := max (s + ww) k

/-- The next numerator: old numerator and new value, each weighted by its distance to the next scale. -/
def numNext (s k v n ww : EReal) : EReal :=
  Ideal.exp (s + ww - scaleNext s k ww) * n + Ideal.exp (k - scaleNext s k ww) * v

/-- The next denominator: the same two weights, the second one bare. -/
def denNext (s k d ww : EReal) : EReal :=
  Ideal.exp (s + ww - scaleNext s k ww) * d + Ideal.exp (k - scaleNext s k ww)

/-- The scale the output path normalises by: the larger of the scale and the key with its bonus. -/
def scaleOut (s k wu : EReal) : EReal := max s (wu + k)

/-- The receptance-gated quotient σ(r) · (nₜ / dₜ) of the output path. -/
def gated (r s k v n d wu : EReal) : EReal :=
  Ideal.logistic r *
    Ideal.div (Ideal.exp (s - scaleOut s k wu) * n + Ideal.exp (wu + k - scaleOut s k wu) * v)
      (Ideal.exp (s - scaleOut s k wu) * d + Ideal.exp (wu + k - scaleOut s k wu))

/-! ## Rows against the transpose of a square matrix -/

/-- Rows h times the transpose of w, at (p, q): the sum over the row of h (p, k) · w (q, k). -/
def rowsTimes (h : Fin 4096 → Fin 2048 → EReal) (w : FVec Ideal Sq .f32) (p : Fin 4096) (q : Fin 2048) : EReal :=
  ∑ k : Fin 2048, h p k * w (ix2 q k)

/-- A projection of the input rows: x·wᵀ at (p, q). -/
def proj (x : FVec Ideal Rows .f32) (w : FVec Ideal Sq .f32) (p : Fin 4096) (q : Fin 2048) : EReal :=
  rowsTimes (fun p k => x (ix2 p k)) w p q

/-! ## The four results as whole arrays -/

/-- s': the next log-scale array. -/
def nextScale (x s : FVec Ideal Rows .f32) (wk : FVec Ideal Sq .f32) (ww : FVec Ideal Lane .f32) : FVec Ideal Rows .f32 :=
  fun i => scaleNext (s i) (proj x wk (i 0) (i 1)) (ww (ix1 (n := 2048) (i 1)))

/-- n': the next numerator array. -/
def nextNum (x n s : FVec Ideal Rows .f32) (wk wv : FVec Ideal Sq .f32) (ww : FVec Ideal Lane .f32) : FVec Ideal Rows .f32 :=
  fun i => numNext (s i) (proj x wk (i 0) (i 1)) (proj x wv (i 0) (i 1)) (n i) (ww (ix1 (n := 2048) (i 1)))

/-- d': the next denominator array. -/
def nextDen (x d s : FVec Ideal Rows .f32) (wk : FVec Ideal Sq .f32) (ww : FVec Ideal Lane .f32) : FVec Ideal Rows .f32 :=
  fun i => denNext (s i) (proj x wk (i 0) (i 1)) (d i) (ww (ix1 (n := 2048) (i 1)))

/-- σ(r) · (nₜ / dₜ) at (p, j), from the argument arrays. -/
def gate (x n d s : FVec Ideal Rows .f32) (wr wk wv : FVec Ideal Sq .f32) (wu : FVec Ideal Lane .f32)
    (p : Fin 4096) (j : Fin 2048) : EReal :=
  gated (proj x wr p j) (s (ix2 p j)) (proj x wk p j) (proj x wv p j) (n (ix2 p j)) (d (ix2 p j)) (wu (ix1 j))

/-- The output rows: the gated quotient against the transpose of w_o. -/
def output (x n d s : FVec Ideal Rows .f32) (wr wk wv wo : FVec Ideal Sq .f32) (wu : FVec Ideal Lane .f32) : FVec Ideal Rows .f32 :=
  fun i => rowsTimes (gate x n d s wr wk wv wu) wo (i 0) (i 1)

end Cert.Wkv

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.BlockValues.lean ====
/-
  What one grid point's body computes, entry by entry, from the blocks it loads — at the exact instance, for arbitrary
  blocks. A point holds 32 rows: a block X of the input rows, the matching blocks N, D, S of the state, the four
  whole weight matrices and the two per-column rows. Each of its four stores is read here at the entry (a, b) of the
  block:

    * a product of the 32 rows against a weight matrix, both contracted along their last axis into a zero accumulator,
      is the plain sum over the row (`blockTimes`), whatever narrower format the operands were cut to on the way;
    * a per-column row repeated down the 32 rows reads its column (`laneDown`);
    * every other operation acts entry by entry, so the stores are the one-entry functions of `Cert.Wkv` at the
      block's entries, and the output store is the sum over the row of the gated quotient against w_o.
-/
import proofs.«136066_j58617713656063_1_alg».proof.Proof.Gen.KernelIdeal.Skeleton
import proofs.«136066_j58617713656063_1_alg».proof.Proof.Wkv
import proofs.«136066_j58617713656063_1_alg».proof.Proof.LibDenseRows
import Idealize.ShloMosaic.Lib.Pipeline.Value
import Idealize.ShloMosaic.Lib.ValueLayout
import Idealize.ShloMosaic.Lib.ValueIdx

noncomputable section

open scoped BigOperators

namespace Cert.KernelIdeal.BlockValues

open Cert.KernelIdeal Cert.KernelIdeal.Gen Idealize.ShloMosaic Idealize.ShloMosaic.ValueIdx Cert.Wkv

/-! ## The two operations that are not entry by entry -/

/-- 32 rows against the transpose of a whole weight matrix, into a zero accumulator, at (a, b): the sum over the row of
    H (a, k) · W (b, k). -/
theorem blockTimes (H : FVec Ideal S32x2048 .bf16) (W : FVec Ideal S2048x2048 .bf16) (a : Fin 32) (b : Fin 2048) :
    matmul dot_S32x2048_S2048x2048_S32x2048_1_1_0_0_n_n none H
        (shapeCast S2048x2048 W shapeCasts_S2048x2048_S2048x2048) (constant (F := Ideal) S32x2048 .f32 0x00000000#32) (ix2 a b)
      = ∑ k : Fin 2048, H (ix2 a k) * W (ix2 b k) := by
  rw [shapeCast_self]
  exact DenseRows.matmulT_zero_apply none H W a b

/-- A per-column row, recast in its own shape and repeated down the 32 rows, reads its column. -/
theorem laneDown (L : Vec Ideal S1x2048 .f32) (a : Fin 32) (b : Fin 2048) :
    broadcastTo S32x2048 (shapeCast S1x2048 L shapeCasts_S1x2048_S1x2048) broadcasts_S1x2048_S32x2048 (ix2 a b)
      = L (ix2 (0 : Fin 1) b) := by
  rw [shapeCast_self]
  exact broadcastTo_1b_ab_apply L broadcasts_S1x2048_S32x2048 a b

/-! ## The three projections of the block's rows -/

/-- The key k = x·w_kᵀ at an entry of the block. -/
theorem key_apply (X : Vec Ideal S32x2048 .f32) (W : Vec Ideal S2048x2048 .bf16) (a : Fin 32) (b : Fin 2048) :
    k0_pay12 (F := Ideal) X W (ix2 a b) = ∑ k : Fin 2048, X (ix2 a k) * W (ix2 b k) :=
  blockTimes (k0_pay7 X) W a b

/-- The value v = x·w_vᵀ at an entry of the block. -/
theorem value_apply (X : Vec Ideal S32x2048 .f32) (W : Vec Ideal S2048x2048 .bf16) (a : Fin 32) (b : Fin 2048) :
    k0_pay13 (F := Ideal) X W (ix2 a b) = ∑ k : Fin 2048, X (ix2 a k) * W (ix2 b k) :=
  blockTimes (k0_pay7 X) W a b

/-- The receptance σ(x·w_rᵀ) at an entry of the block. -/
theorem recept_apply (X : Vec Ideal S32x2048 .f32) (W : Vec Ideal S2048x2048 .bf16) (a : Fin 32) (b : Fin 2048) :
    k0_pay11 (F := Ideal) X W (ix2 a b) = Ideal.logistic (∑ k : Fin 2048, X (ix2 a k) * W (ix2 b k)) :=
  congrArg Ideal.logistic (blockTimes (k0_pay7 X) W a b)

/-! ## The per-column rows as the body repeats them -/

theorem bonusDown (L : Vec Ideal S1x2048 .f32) (a : Fin 32) (b : Fin 2048) :
    broadcastTo S32x2048 (k0_pay9 (F := Ideal) L) broadcasts_S1x2048_S32x2048 (ix2 a b) = L (ix2 (0 : Fin 1) b) :=
  laneDown L a b

theorem decayDown (L : Vec Ideal S1x2048 .f32) (a : Fin 32) (b : Fin 2048) :
    broadcastTo S32x2048 (k0_pay10 (F := Ideal) L) broadcasts_S1x2048_S32x2048 (ix2 a b) = L (ix2 (0 : Fin 1) b) :=
  laneDown L a b

theorem decayDown' (L : Vec Ideal S1x2048 .f32) (a : Fin 32) (b : Fin 2048) :
    k0_pay19 (F := Ideal) L (ix2 a b) = L (ix2 (0 : Fin 1) b) :=
  laneDown L a b

/-! ## The state update at an entry of the block -/

/-- The store to the next-scale block: s' = max (s + w_w) k. -/
theorem scale_block (X S : Vec Ideal S32x2048 .f32) (Wk : Vec Ideal S2048x2048 .bf16) (Lw : Vec Ideal S1x2048 .f32)
    (a : Fin 32) (b : Fin 2048) :
    k0_pay1 (F := Ideal) (k0_pay12 X Wk) S (k0_pay19 Lw) (ix2 a b)
      = scaleNext (S (ix2 a b)) (∑ k : Fin 2048, X (ix2 a k) * Wk (ix2 b k)) (Lw (ix2 (0 : Fin 1) b)) := by
  show max (S (ix2 a b) + k0_pay19 (F := Ideal) Lw (ix2 a b)) (k0_pay12 (F := Ideal) X Wk (ix2 a b)) = _
  rw [decayDown', key_apply]
  rfl

/-- The store to the next-numerator block: n' = e^(s + w_w − s')·n + e^(k − s')·v. -/
theorem num_block (X N S : Vec Ideal S32x2048 .f32) (Wk Wv : Vec Ideal S2048x2048 .bf16) (Lw : Vec Ideal S1x2048 .f32)
    (a : Fin 32) (b : Fin 2048) :
    k0_pay4 (F := Ideal) (k0_pay10 Lw) (k0_pay12 X Wk) (k0_pay13 X Wv) N S (k0_pay19 Lw) (ix2 a b)
      = numNext (S (ix2 a b)) (∑ k : Fin 2048, X (ix2 a k) * Wk (ix2 b k)) (∑ k : Fin 2048, X (ix2 a k) * Wv (ix2 b k))
          (N (ix2 a b)) (Lw (ix2 (0 : Fin 1) b)) := by
  show Ideal.exp (S (ix2 a b) + broadcastTo S32x2048 (k0_pay10 (F := Ideal) Lw) broadcasts_S1x2048_S32x2048 (ix2 a b)
          - k0_pay1 (F := Ideal) (k0_pay12 X Wk) S (k0_pay19 Lw) (ix2 a b)) * N (ix2 a b)
      + Ideal.exp (k0_pay12 (F := Ideal) X Wk (ix2 a b) - k0_pay1 (F := Ideal) (k0_pay12 X Wk) S (k0_pay19 Lw) (ix2 a b))
          * k0_pay13 (F := Ideal) X Wv (ix2 a b) = _
  rw [scale_block, decayDown, key_apply, value_apply]
  rfl

/-- The store to the next-denominator block: d' = e^(s + w_w − s')·d + e^(k − s'). -/
theorem den_block (X D S : Vec Ideal S32x2048 .f32) (Wk : Vec Ideal S2048x2048 .bf16) (Lw : Vec Ideal S1x2048 .f32)
    (a : Fin 32) (b : Fin 2048) :
    k0_pay5 (F := Ideal) (k0_pay10 Lw) (k0_pay12 X Wk) D S (k0_pay19 Lw) (ix2 a b)
      = denNext (S (ix2 a b)) (∑ k : Fin 2048, X (ix2 a k) * Wk (ix2 b k)) (D (ix2 a b)) (Lw (ix2 (0 : Fin 1) b)) := by
  show Ideal.exp (S (ix2 a b) + broadcastTo S32x2048 (k0_pay10 (F := Ideal) Lw) broadcasts_S1x2048_S32x2048 (ix2 a b)
          - k0_pay1 (F := Ideal) (k0_pay12 X Wk) S (k0_pay19 Lw) (ix2 a b)) * D (ix2 a b)
      + Ideal.exp (k0_pay12 (F := Ideal) X Wk (ix2 a b) - k0_pay1 (F := Ideal) (k0_pay12 X Wk) S (k0_pay19 Lw) (ix2 a b)) = _
  rw [scale_block, decayDown, key_apply]
  rfl

/-! ## The output path at an entry of the block -/

/-- The scale the output path normalises by: sₜ = max s (w_u + k). -/
theorem outScale_block (X S : Vec Ideal S32x2048 .f32) (Wk : Vec Ideal S2048x2048 .bf16) (Lu : Vec Ideal S1x2048 .f32)
    (a : Fin 32) (b : Fin 2048) :
    k0_pay14 (F := Ideal) X Wk Lu S (ix2 a b)
      = scaleOut (S (ix2 a b)) (∑ k : Fin 2048, X (ix2 a k) * Wk (ix2 b k)) (Lu (ix2 (0 : Fin 1) b)) := by
  show max (S (ix2 a b))
      (broadcastTo S32x2048 (k0_pay9 (F := Ideal) Lu) broadcasts_S1x2048_S32x2048 (ix2 a b) + k0_pay12 (F := Ideal) X Wk (ix2 a b)) = _
  rw [bonusDown, key_apply]
  rfl

/-- The old state's weight e^(s − sₜ). -/
theorem cellWeight_block (X S : Vec Ideal S32x2048 .f32) (Wk : Vec Ideal S2048x2048 .bf16) (Lu : Vec Ideal S1x2048 .f32)
    (a : Fin 32) (b : Fin 2048) :
    k0_pay15 (F := Ideal) X Wk Lu S (ix2 a b)
      = Ideal.exp (S (ix2 a b)
          - scaleOut (S (ix2 a b)) (∑ k : Fin 2048, X (ix2 a k) * Wk (ix2 b k)) (Lu (ix2 (0 : Fin 1) b))) := by
  show Ideal.exp (S (ix2 a b) - k0_pay14 (F := Ideal) X Wk Lu S (ix2 a b)) = _
  rw [outScale_block]

/-- The new value's weight e^(w_u + k − sₜ). -/
theorem attnWeight_block (X S : Vec Ideal S32x2048 .f32) (Wk : Vec Ideal S2048x2048 .bf16) (Lu : Vec Ideal S1x2048 .f32)
    (a : Fin 32) (b : Fin 2048) :
    k0_pay16 (F := Ideal) X Wk Lu S (ix2 a b)
      = Ideal.exp (Lu (ix2 (0 : Fin 1) b) + (∑ k : Fin 2048, X (ix2 a k) * Wk (ix2 b k))
          - scaleOut (S (ix2 a b)) (∑ k : Fin 2048, X (ix2 a k) * Wk (ix2 b k)) (Lu (ix2 (0 : Fin 1) b))) := by
  show Ideal.exp (broadcastTo S32x2048 (k0_pay9 (F := Ideal) Lu) broadcasts_S1x2048_S32x2048 (ix2 a b)
      + k0_pay12 (F := Ideal) X Wk (ix2 a b) - k0_pay14 (F := Ideal) X Wk Lu S (ix2 a b)) = _
  rw [outScale_block, bonusDown, key_apply]

/-- The gated quotient σ(r) · (nₜ / dₜ) at an entry of the block. -/
theorem gate_block (X N D S : Vec Ideal S32x2048 .f32) (Wr Wk Wv : Vec Ideal S2048x2048 .bf16) (Lu : Vec Ideal S1x2048 .f32)
    (a : Fin 32) (b : Fin 2048) :
    k0_pay11 (F := Ideal) X Wr (ix2 a b)
        * Ideal.div (k0_pay17 (F := Ideal) X Wk Wv Lu N S (ix2 a b)) (k0_pay18 (F := Ideal) X Wk Lu D S (ix2 a b))
      = gated (∑ k : Fin 2048, X (ix2 a k) * Wr (ix2 b k)) (S (ix2 a b)) (∑ k : Fin 2048, X (ix2 a k) * Wk (ix2 b k))
          (∑ k : Fin 2048, X (ix2 a k) * Wv (ix2 b k)) (N (ix2 a b)) (D (ix2 a b)) (Lu (ix2 (0 : Fin 1) b)) := by
  have hn : k0_pay17 (F := Ideal) X Wk Wv Lu N S (ix2 a b)
      = k0_pay15 (F := Ideal) X Wk Lu S (ix2 a b) * N (ix2 a b)
        + k0_pay16 (F := Ideal) X Wk Lu S (ix2 a b) * k0_pay13 (F := Ideal) X Wv (ix2 a b) := rfl
  have hd : k0_pay18 (F := Ideal) X Wk Lu D S (ix2 a b)
      = k0_pay15 (F := Ideal) X Wk Lu S (ix2 a b) * D (ix2 a b) + k0_pay16 (F := Ideal) X Wk Lu S (ix2 a b) := rfl
  rw [hn, hd, recept_apply, cellWeight_block, attnWeight_block, value_apply]
  rfl

/-- The store to the output block: the gated quotient's rows against the transpose of w_o. -/
theorem out_block (X N D S : Vec Ideal S32x2048 .f32) (Wr Wk Wv Wo : Vec Ideal S2048x2048 .bf16) (Lu : Vec Ideal S1x2048 .f32)
    (a : Fin 32) (q : Fin 2048) :
    k0_pay6 (F := Ideal) (k0_pay8 Wo) (k0_pay11 X Wr) (k0_pay17 X Wk Wv Lu N S) (k0_pay18 X Wk Lu D S) (ix2 a q)
      = ∑ j : Fin 2048,
          gated (∑ k : Fin 2048, X (ix2 a k) * Wr (ix2 j k)) (S (ix2 a j)) (∑ k : Fin 2048, X (ix2 a k) * Wk (ix2 j k))
            (∑ k : Fin 2048, X (ix2 a k) * Wv (ix2 j k)) (N (ix2 a j)) (D (ix2 a j)) (Lu (ix2 (0 : Fin 1) j))
          * Wo (ix2 q j) := by
  refine (blockTimes (truncf .bf16 (mulf (k0_pay11 (F := Ideal) X Wr)
      (divf (k0_pay17 (F := Ideal) X Wk Wv Lu N S) (k0_pay18 (F := Ideal) X Wk Lu D S))) bitsLt_bf16_f32) Wo a q).trans ?_
  exact Finset.sum_congr rfl fun j _ => congrArg (· * Wo (ix2 q j)) (gate_block X N D S Wr Wk Wv Lu a j)

end Cert.KernelIdeal.BlockValues

end
-- ==== Proof.Arrays.lean ====
/-
  From the blocks each grid point writes to the four result arrays, for the idealized kernel.

  The grid has 128 points; point t holds rows 32·t … 32·t + 31 of every batch-shaped array (the inputs, the three state
  arrays and the four results) and the whole of every weight matrix and per-column row. Before the region the host only
  changes the weights' format, which is the identity on the extended reals, and recasts the two per-column vectors as
  one-row matrices. So at the entry (a, b) of its block a point reads the argument arrays at row 32·t + a, and by
  `Cert.KernelIdeal.BlockValues` what it writes back is block t of the whole-array functions of `Cert.Wkv`. The 128
  blocks of 32 rows tile the 4096 rows, so each result array ends as that function everywhere.
-/
import proofs.«136066_j58617713656063_1_alg».proof.Proof.Gen.KernelIdeal.Frame
import proofs.«136066_j58617713656063_1_alg».proof.Proof.BlockValues
import Idealize.ShloMosaic.Lib.Pipeline.Value
import Idealize.ShloMosaic.Lib.StableHlo.Run
import Idealize.ShloMosaic.Lib.ValueLayout

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Cert.Wkv
open Idealize.ShloMosaic.Pipeline (Dat)

variable (m : (ℓ : Loc nD τ sig) → Buf (Elt Ideal) ℓ)

/-! ## The arrays the region finds: the host's operations before it -/

/-- The weight matrix the region reads for w_r is the argument itself: cutting to a narrower format changes nothing here. -/
theorem V_wr (c : Dev nD) : (V m c main_v0 : S2048x2048.Idx → EReal) = (m ((c : Thread nD τ).loc main_arg4)) := by
  dsimp only [V, hostOps0]; after_results; rfl

/-- The weight matrix the region reads for w_k is the argument itself: cutting to a narrower format changes nothing here. -/
theorem V_wk (c : Dev nD) : (V m c main_v1 : S2048x2048.Idx → EReal) = (m ((c : Thread nD τ).loc main_arg5)) := by
  dsimp only [V, hostOps0]; after_results; rfl

/-- The weight matrix the region reads for w_v is the argument itself: cutting to a narrower format changes nothing here. -/
theorem V_wv (c : Dev nD) : (V m c main_v2 : S2048x2048.Idx → EReal) = (m ((c : Thread nD τ).loc main_arg6)) := by
  dsimp only [V, hostOps0]; after_results; rfl

/-- The weight matrix the region reads for w_o is the argument itself: cutting to a narrower format changes nothing here. -/
theorem V_wo (c : Dev nD) : (V m c main_v3 : S2048x2048.Idx → EReal) = (m ((c : Thread nD τ).loc main_arg7)) := by
  dsimp only [V, hostOps0]; after_results; rfl

/-- The one-row matrix the region reads for w_u holds the argument vector's entry b at (0, b). -/
theorem V_wu (c : Dev nD) (b : Fin 2048) :
    (V m c main_v4 : S1x2048.Idx → EReal) (ix2 (0 : Fin 1) b) = (m ((c : Thread nD τ).loc main_arg8)) (ix1 b) := by
  have e : (V m c main_v4 : S1x2048.Idx → EReal) = shapeCast S1x2048 (m ((c : Thread nD τ).loc main_arg8)) shapeCasts_S2048_S1x2048 := by
    dsimp only [V, hostOps0]; after_results; rfl
  rw [e]; exact shapeCast_a_1a_apply _ _ 0 b

/-- The one-row matrix the region reads for w_w holds the argument vector's entry b at (0, b). -/
theorem V_ww (c : Dev nD) (b : Fin 2048) :
    (V m c main_v5 : S1x2048.Idx → EReal) (ix2 (0 : Fin 1) b) = (m ((c : Thread nD τ).loc main_arg9)) (ix1 b) := by
  have e : (V m c main_v5 : S1x2048.Idx → EReal) = shapeCast S1x2048 (m ((c : Thread nD τ).loc main_arg9)) shapeCasts_S2048_S1x2048 := by
    dsimp only [V, hostOps0]; after_results; rfl
  rw [e]; exact shapeCast_a_1a_apply _ _ 0 b

/-! ## Where a point's blocks sit -/

/-- The block offset is the zero vector as a function. -/
theorem hz : (![0, 0] : Fin 2 → Nat) = fun _ => 0 := funext fun a => by fin_cases a <;> rfl

/-- The batch-shaped windows move one block of rows per point and never along the columns (decided over the grid). -/
theorem rowWindows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- The weight and per-column windows stay on their one block (decided over the grid). -/
theorem wholeWindows : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row a of point t's block is row 32·t + a of the array. -/
def row (t : Fin cfg0.N) (a : Fin 32) : Fin 4096 :=
  ⟨t.val * 32 + a.val, by have h : t.val < grid0.N := t.isLt; rw [N_0] at h; have := a.isLt; omega⟩

theorem emb0 (t : Fin cfg0.N) (a : Fin 32) (k : Fin 2048) :
    ((cfg0.win 0).blk t).view.emb (ix2 a k : S32x2048.Idx) = (ix2 (row t a) k : S4096x2048.Idx) := by
  obtain ⟨⟨h0, h1⟩, -⟩ := rowWindows t
  funext d; apply Fin.ext
  match d with
  | ⟨0, _⟩ => show win0_0.index t (0 : Fin 2) * 32 + 1 * a.val = t.val * 32 + a.val; omega
  | ⟨1, _⟩ => show win0_0.index t (1 : Fin 2) * 2048 + 1 * k.val = k.val; omega

theorem emb1 (t : Fin cfg0.N) (a : Fin 32) (k : Fin 2048) :
    ((cfg0.win 1).blk t).view.emb (ix2 a k : S32x2048.Idx) = (ix2 (row t a) k : S4096x2048.Idx) := by
  obtain ⟨-, ⟨h0, h1⟩, -⟩ := rowWindows t
  funext d; apply Fin.ext
  match d with
  | ⟨0, _⟩ => show win0_1.index t (0 : Fin 2) * 32 + 1 * a.val = t.val * 32 + a.val; omega
  | ⟨1, _⟩ => show win0_1.index t (1 : Fin 2) * 2048 + 1 * k.val = k.val; omega

theorem emb2 (t : Fin cfg0.N) (a : Fin 32) (k : Fin 2048) :
    ((cfg0.win 2).blk t).view.emb (ix2 a k : S32x2048.Idx) = (ix2 (row t a) k : S4096x2048.Idx) := by
  obtain ⟨-, -, ⟨h0, h1⟩, -⟩ := rowWindows t
  funext d; apply Fin.ext
  match d with
  | ⟨0, _⟩ => show win0_2.index t (0 : Fin 2) * 32 + 1 * a.val = t.val * 32 + a.val; omega
  | ⟨1, _⟩ => show win0_2.index t (1 : Fin 2) * 2048 + 1 * k.val = k.val; omega

theorem emb3 (t : Fin cfg0.N) (a : Fin 32) (k : Fin 2048) :
    ((cfg0.win 3).blk t).view.emb (ix2 a k : S32x2048.Idx) = (ix2 (row t a) k : S4096x2048.Idx) := by
  obtain ⟨-, -, -, ⟨h0, h1⟩, -⟩ := rowWindows t
  funext d; apply Fin.ext
  match d with
  | ⟨0, _⟩ => show win0_3.index t (0 : Fin 2) * 32 + 1 * a.val = t.val * 32 + a.val; omega
  | ⟨1, _⟩ => show win0_3.index t (1 : Fin 2) * 2048 + 1 * k.val = k.val; omega

theorem emb10 (t : Fin cfg0.N) (a : Fin 32) (k : Fin 2048) :
    ((cfg0.win 10).blk t).view.emb (ix2 a k : S32x2048.Idx) = (ix2 (row t a) k : S4096x2048.Idx) := by
  obtain ⟨-, -, -, -, ⟨h0, h1⟩, -⟩ := rowWindows t
  funext d; apply Fin.ext
  match d with
  | ⟨0, _⟩ => show win0_10.index t (0 : Fin 2) * 32 + 1 * a.val = t.val * 32 + a.val; omega
  | ⟨1, _⟩ => show win0_10.index t (1 : Fin 2) * 2048 + 1 * k.val = k.val; omega

theorem emb11 (t : Fin cfg0.N) (a : Fin 32) (k : Fin 2048) :
    ((cfg0.win 11).blk t).view.emb (ix2 a k : S32x2048.Idx) = (ix2 (row t a) k : S4096x2048.Idx) := by
  obtain ⟨-, -, -, -, -, ⟨h0, h1⟩, -⟩ := rowWindows t
  funext d; apply Fin.ext
  match d with
  | ⟨0, _⟩ => show win0_11.index t (0 : Fin 2) * 32 + 1 * a.val = t.val * 32 + a.val; omega
  | ⟨1, _⟩ => show win0_11.index t (1 : Fin 2) * 2048 + 1 * k.val = k.val; omega

theorem emb12 (t : Fin cfg0.N) (a : Fin 32) (k : Fin 2048) :
    ((cfg0.win 12).blk t).view.emb (ix2 a k : S32x2048.Idx) = (ix2 (row t a) k : S4096x2048.Idx) := by
  obtain ⟨-, -, -, -, -, -, ⟨h0, h1⟩, -⟩ := rowWindows t
  funext d; apply Fin.ext
  match d with
  | ⟨0, _⟩ => show win0_12.index t (0 : Fin 2) * 32 + 1 * a.val = t.val * 32 + a.val; omega
  | ⟨1, _⟩ => show win0_12.index t (1 : Fin 2) * 2048 + 1 * k.val = k.val; omega

theorem emb13 (t : Fin cfg0.N) (a : Fin 32) (k : Fin 2048) :
    ((cfg0.win 13).blk t).view.emb (ix2 a k : S32x2048.Idx) = (ix2 (row t a) k : S4096x2048.Idx) := by
  obtain ⟨-, -, -, -, -, -, -, h0, h1⟩ := rowWindows t
  funext d; apply Fin.ext
  match d with
  | ⟨0, _⟩ => show win0_13.index t (0 : Fin 2) * 32 + 1 * a.val = t.val * 32 + a.val; omega
  | ⟨1, _⟩ => show win0_13.index t (1 : Fin 2) * 2048 + 1 * k.val = k.val; omega

theorem emb4 (t : Fin cfg0.N) (b k : Fin 2048) :
    ((cfg0.win 4).blk t).view.emb (ix2 b k : S2048x2048.Idx) = (ix2 b k : S2048x2048.Idx) := by
  obtain ⟨⟨h0, h1⟩, -⟩ := wholeWindows t
  funext d; apply Fin.ext
  match d with
  | ⟨0, _⟩ => show win0_4.index t (0 : Fin 2) * 2048 + 1 * b.val = b.val; omega
  | ⟨1, _⟩ => show win0_4.index t (1 : Fin 2) * 2048 + 1 * k.val = k.val; omega

theorem emb5 (t : Fin cfg0.N) (b k : Fin 2048) :
    ((cfg0.win 5).blk t).view.emb (ix2 b k : S2048x2048.Idx) = (ix2 b k : S2048x2048.Idx) := by
  obtain ⟨-, ⟨h0, h1⟩, -⟩ := wholeWindows t
  funext d; apply Fin.ext
  match d with
  | ⟨0, _⟩ => show win0_5.index t (0 : Fin 2) * 2048 + 1 * b.val = b.val; omega
  | ⟨1, _⟩ => show win0_5.index t (1 : Fin 2) * 2048 + 1 * k.val = k.val; omega

theorem emb6 (t : Fin cfg0.N) (b k : Fin 2048) :
    ((cfg0.win 6).blk t).view.emb (ix2 b k : S2048x2048.Idx) = (ix2 b k : S2048x2048.Idx) := by
  obtain ⟨-, -, ⟨h0, h1⟩, -⟩ := wholeWindows t
  funext d; apply Fin.ext
  match d with
  | ⟨0, _⟩ => show win0_6.index t (0 : Fin 2) * 2048 + 1 * b.val = b.val; omega
  | ⟨1, _⟩ => show win0_6.index t (1 : Fin 2) * 2048 + 1 * k.val = k.val; omega

theorem emb7 (t : Fin cfg0.N) (b k : Fin 2048) :
    ((cfg0.win 7).blk t).view.emb (ix2 b k : S2048x2048.Idx) = (ix2 b k : S2048x2048.Idx) := by
  obtain ⟨-, -, -, ⟨h0, h1⟩, -⟩ := wholeWindows t
  funext d; apply Fin.ext
  match d with
  | ⟨0, _⟩ => show win0_7.index t (0 : Fin 2) * 2048 + 1 * b.val = b.val; omega
  | ⟨1, _⟩ => show win0_7.index t (1 : Fin 2) * 2048 + 1 * k.val = k.val; omega

theorem emb8 (t : Fin cfg0.N) (b : Fin 2048) :
    ((cfg0.win 8).blk t).view.emb (ix2 (0 : Fin 1) b : S1x2048.Idx) = (ix2 (0 : Fin 1) b : S1x2048.Idx) := by
  obtain ⟨-, -, -, -, ⟨h0, h1⟩, -⟩ := wholeWindows t
  funext d; apply Fin.ext
  match d with
  | ⟨0, _⟩ => show win0_8.index t (0 : Fin 2) * 1 + 1 * 0 = 0; omega
  | ⟨1, _⟩ => show win0_8.index t (1 : Fin 2) * 2048 + 1 * b.val = b.val; omega

theorem emb9 (t : Fin cfg0.N) (b : Fin 2048) :
    ((cfg0.win 9).blk t).view.emb (ix2 (0 : Fin 1) b : S1x2048.Idx) = (ix2 (0 : Fin 1) b : S1x2048.Idx) := by
  obtain ⟨-, -, -, -, -, h0, h1⟩ := wholeWindows t
  funext d; apply Fin.ext
  match d with
  | ⟨0, _⟩ => show win0_9.index t (0 : Fin 2) * 1 + 1 * 0 = 0; omega
  | ⟨1, _⟩ => show win0_9.index t (1 : Fin 2) * 2048 + 1 * b.val = b.val; omega

/-! ## What a point's input blocks hold -/

theorem blk0 (c : Dev nD) (t : Fin cfg0.N) (a : Fin 32) (k : Fin 2048) :
    iblk m c 0 t (ix2 a k) = (m ((c : Thread nD τ).loc main_arg0)) (ix2 (row t a) k) := by
  show V m c main_arg0 (((cfg0.win 0).blk t).view.emb (ix2 a k : S32x2048.Idx)) = _
  rw [emb0, V_main_arg0]

theorem blk1 (c : Dev nD) (t : Fin cfg0.N) (a : Fin 32) (k : Fin 2048) :
    iblk m c 1 t (ix2 a k) = (m ((c : Thread nD τ).loc main_arg1)) (ix2 (row t a) k) := by
  show V m c main_arg1 (((cfg0.win 1).blk t).view.emb (ix2 a k : S32x2048.Idx)) = _
  rw [emb1, V_main_arg1]

theorem blk2 (c : Dev nD) (t : Fin cfg0.N) (a : Fin 32) (k : Fin 2048) :
    iblk m c 2 t (ix2 a k) = (m ((c : Thread nD τ).loc main_arg2)) (ix2 (row t a) k) := by
  show V m c main_arg2 (((cfg0.win 2).blk t).view.emb (ix2 a k : S32x2048.Idx)) = _
  rw [emb2, V_main_arg2]

theorem blk3 (c : Dev nD) (t : Fin cfg0.N) (a : Fin 32) (k : Fin 2048) :
    iblk m c 3 t (ix2 a k) = (m ((c : Thread nD τ).loc main_arg3)) (ix2 (row t a) k) := by
  show V m c main_arg3 (((cfg0.win 3).blk t).view.emb (ix2 a k : S32x2048.Idx)) = _
  rw [emb3, V_main_arg3]

theorem blk4 (c : Dev nD) (t : Fin cfg0.N) (b k : Fin 2048) :
    iblk m c 4 t (ix2 b k) = (m ((c : Thread nD τ).loc main_arg4)) (ix2 b k) := by
  show (V m c main_v0 : S2048x2048.Idx → EReal) (((cfg0.win 4).blk t).view.emb (ix2 b k : S2048x2048.Idx)) = _
  rw [emb4, V_wr]

theorem blk5 (c : Dev nD) (t : Fin cfg0.N) (b k : Fin 2048) :
    iblk m c 5 t (ix2 b k) = (m ((c : Thread nD τ).loc main_arg5)) (ix2 b k) := by
  show (V m c main_v1 : S2048x2048.Idx → EReal) (((cfg0.win 5).blk t).view.emb (ix2 b k : S2048x2048.Idx)) = _
  rw [emb5, V_wk]

theorem blk6 (c : Dev nD) (t : Fin cfg0.N) (b k : Fin 2048) :
    iblk m c 6 t (ix2 b k) = (m ((c : Thread nD τ).loc main_arg6)) (ix2 b k) := by
  show (V m c main_v2 : S2048x2048.Idx → EReal) (((cfg0.win 6).blk t).view.emb (ix2 b k : S2048x2048.Idx)) = _
  rw [emb6, V_wv]

theorem blk7 (c : Dev nD) (t : Fin cfg0.N) (b k : Fin 2048) :
    iblk m c 7 t (ix2 b k) = (m ((c : Thread nD τ).loc main_arg7)) (ix2 b k) := by
  show (V m c main_v3 : S2048x2048.Idx → EReal) (((cfg0.win 7).blk t).view.emb (ix2 b k : S2048x2048.Idx)) = _
  rw [emb7, V_wo]

theorem blk8 (c : Dev nD) (t : Fin cfg0.N) (b : Fin 2048) :
    iblk m c 8 t (ix2 (0 : Fin 1) b) = (m ((c : Thread nD τ).loc main_arg8)) (ix1 b) := by
  show (V m c main_v4 : S1x2048.Idx → EReal) (((cfg0.win 8).blk t).view.emb (ix2 (0 : Fin 1) b : S1x2048.Idx)) = _
  rw [emb8, V_wu]

theorem blk9 (c : Dev nD) (t : Fin cfg0.N) (b : Fin 2048) :
    iblk m c 9 t (ix2 (0 : Fin 1) b) = (m ((c : Thread nD τ).loc main_arg9)) (ix1 b) := by
  show (V m c main_v5 : S1x2048.Idx → EReal) (((cfg0.win 9).blk t).view.emb (ix2 (0 : Fin 1) b : S1x2048.Idx)) = _
  rw [emb9, V_ww]

/-- Row a of a block of input rows against row b of a weight matrix: the sum over the row of X (a, k) · W (b, k). -/
def rowDot (X : Vec Ideal S32x2048 .f32) (W : Vec Ideal S2048x2048 .bf16) (a : Fin 32) (b : Fin 2048) : EReal :=
  ∑ k : Fin 2048, X (ix2 a k) * W (ix2 b k)

/-- The receptance projection taken inside a block is the whole-array projection at the block's row. -/
theorem projR (c : Dev nD) (t : Fin cfg0.N) (a : Fin 32) (b : Fin 2048) :
    rowDot (iblk m c 0 t) (iblk m c 4 t) a b = proj (m ((c : Thread nD τ).loc main_arg0)) (m ((c : Thread nD τ).loc main_arg4)) (row t a) b := by
  unfold rowDot proj rowsTimes
  exact Finset.sum_congr rfl fun k _ => by rw [blk0, blk4]

/-- The key projection taken inside a block is the whole-array projection at the block's row. -/
theorem projK (c : Dev nD) (t : Fin cfg0.N) (a : Fin 32) (b : Fin 2048) :
    rowDot (iblk m c 0 t) (iblk m c 5 t) a b = proj (m ((c : Thread nD τ).loc main_arg0)) (m ((c : Thread nD τ).loc main_arg5)) (row t a) b := by
  unfold rowDot proj rowsTimes
  exact Finset.sum_congr rfl fun k _ => by rw [blk0, blk5]

/-- The value projection taken inside a block is the whole-array projection at the block's row. -/
theorem projV (c : Dev nD) (t : Fin cfg0.N) (a : Fin 32) (b : Fin 2048) :
    rowDot (iblk m c 0 t) (iblk m c 6 t) a b = proj (m ((c : Thread nD τ).loc main_arg0)) (m ((c : Thread nD τ).loc main_arg6)) (row t a) b := by
  unfold rowDot proj rowsTimes
  exact Finset.sum_congr rfl fun k _ => by rw [blk0, blk6]

/-! ## What each point writes back, the cover, and the arrays after the run -/

/-- Point t writes back block t of the next log-scale. -/
theorem flushed13_eq (c : Dev nD) (t : Fin cfg0.N) :
    (dats m 0 c).flushed 13 t = ((cfg0.win 13).blk t).view.read (Elt Ideal) (nextScale (m ((c : Thread nD τ).loc main_arg0)) (m ((c : Thread nD τ).loc main_arg3)) (m ((c : Thread nD τ).loc main_arg5)) (m ((c : Thread nD τ).loc main_arg9))) := by
  show (cfg0.win 13).cut (grid0.coords t) ((dats m 0 c).after 13 t) = _
  rw [after0_13]
  unfold out0_13
  rw [View.canon_unit_zero hz]
  simp only [View.ld_unit_zero (S := S32x2048) hz, View.ld_unit_zero (S := S2048x2048) hz, View.ld_unit_zero (S := S1x2048) hz]
  funext j
  obtain ⟨a, b, rfl⟩ : ∃ (a : Fin 32) (b : Fin 2048), j = ix2 a b := ⟨j 0, j 1, eq_ix2 j⟩
  show k0_pay1 (F := Ideal) (k0_pay12 (iblk m c 0 t) (iblk m c 5 t)) (iblk m c 3 t) (k0_pay19 (iblk m c 9 t)) (ix2 a b)
      = (nextScale (m ((c : Thread nD τ).loc main_arg0)) (m ((c : Thread nD τ).loc main_arg3)) (m ((c : Thread nD τ).loc main_arg5)) (m ((c : Thread nD τ).loc main_arg9))) (((cfg0.win 13).blk t).view.emb (ix2 a b : S32x2048.Idx))
  rw [emb13]
  refine (BlockValues.scale_block (iblk m c 0 t) (iblk m c 3 t) (iblk m c 5 t) (iblk m c 9 t) a b).trans ?_
  show scaleNext _ _ _ = scaleNext _ _ _
  congr 1
  · exact blk3 m c t a b
  · exact projK m c t a b
  · exact blk9 m c t b

/-- An index is in point t's block of result 3 iff each coordinate is in the block's range. -/
theorem mem_blk13 (t : Fin cfg0.N) (i : S4096x2048.Idx) :
    i ∈ ((cfg0.win 13).blk t).view.set ↔ ∀ a : Fin 2, win0_13.index t a * S32x2048.size a ≤ (i a).val
      ∧ (i a).val < win0_13.index t a * S32x2048.size a + S32x2048.size a := by
  show i ∈ ((View.whole main_v6_3).slice (win0_13.rect t)).set ↔ _
  rw [View.set_slice_whole, Rect.mem_set_unit]
  exact Iff.rfl

/-- Every index of result 3 lies in the block of the point its row belongs to: row r is in block r / 32. -/
theorem cover13 (i : S4096x2048.Idx) :
    ∃ t : Fin cfg0.N, (cfg0.win 13).flush t = true ∧ i ∈ ((cfg0.win 13).blk t).view.set := by
  have hi0 : (i 0).val < 4096 := (i 0).isLt
  have hi1 : (i 1).val < 2048 := (i 1).isLt
  have hN : (i 0).val / 32 < cfg0.N := by show (i 0).val / 32 < grid0.N; rw [N_0]; omega
  refine ⟨⟨(i 0).val / 32, hN⟩, flush0_13 _, ?_⟩
  obtain ⟨-, -, -, -, -, -, -, h0, h1⟩ := rowWindows ⟨(i 0).val / 32, hN⟩
  rw [mem_blk13]
  intro a
  match a with
  | ⟨0, _⟩ =>
    show win0_13.index ⟨(i 0).val / 32, hN⟩ (0 : Fin 2) * 32 ≤ (i 0).val
      ∧ (i 0).val < win0_13.index ⟨(i 0).val / 32, hN⟩ (0 : Fin 2) * 32 + 32
    rw [h0]; show (i 0).val / 32 * 32 ≤ (i 0).val ∧ (i 0).val < (i 0).val / 32 * 32 + 32; omega
  | ⟨1, _⟩ =>
    show win0_13.index ⟨(i 0).val / 32, hN⟩ (1 : Fin 2) * 2048 ≤ (i 1).val
      ∧ (i 1).val < win0_13.index ⟨(i 0).val / 32, hN⟩ (1 : Fin 2) * 2048 + 2048
    rw [h1]; omega

/-- After the run result 3 holds the next log-scale of the argument arrays. -/
theorem final13 (c : Dev nD) : (dats m 0 c).arrAt 13 cfg0.N = (nextScale (m ((c : Thread nD τ).loc main_arg0)) (m ((c : Thread nD τ).loc main_arg3)) (m ((c : Thread nD τ).loc main_arg5)) (m ((c : Thread nD τ).loc main_arg9))) :=
  (dats m 0 c).arrAt_eq_of_cover 13 (nextScale (m ((c : Thread nD τ).loc main_arg0)) (m ((c : Thread nD τ).loc main_arg3)) (m ((c : Thread nD τ).loc main_arg5)) (m ((c : Thread nD τ).loc main_arg9))) (fun t _ => flushed13_eq m c t) cover13

/-- Point t writes back block t of the next denominator. -/
theorem flushed12_eq (c : Dev nD) (t : Fin cfg0.N) :
    (dats m 0 c).flushed 12 t = ((cfg0.win 12).blk t).view.read (Elt Ideal) (nextDen (m ((c : Thread nD τ).loc main_arg0)) (m ((c : Thread nD τ).loc main_arg2)) (m ((c : Thread nD τ).loc main_arg3)) (m ((c : Thread nD τ).loc main_arg5)) (m ((c : Thread nD τ).loc main_arg9))) := by
  show (cfg0.win 12).cut (grid0.coords t) ((dats m 0 c).after 12 t) = _
  rw [after0_12]
  unfold out0_12
  rw [View.canon_unit_zero hz]
  simp only [View.ld_unit_zero (S := S32x2048) hz, View.ld_unit_zero (S := S2048x2048) hz, View.ld_unit_zero (S := S1x2048) hz]
  funext j
  obtain ⟨a, b, rfl⟩ : ∃ (a : Fin 32) (b : Fin 2048), j = ix2 a b := ⟨j 0, j 1, eq_ix2 j⟩
  show k0_pay5 (F := Ideal) (k0_pay10 (iblk m c 9 t)) (k0_pay12 (iblk m c 0 t) (iblk m c 5 t)) (iblk m c 2 t) (iblk m c 3 t) (k0_pay19 (iblk m c 9 t)) (ix2 a b)
      = (nextDen (m ((c : Thread nD τ).loc main_arg0)) (m ((c : Thread nD τ).loc main_arg2)) (m ((c : Thread nD τ).loc main_arg3)) (m ((c : Thread nD τ).loc main_arg5)) (m ((c : Thread nD τ).loc main_arg9))) (((cfg0.win 12).blk t).view.emb (ix2 a b : S32x2048.Idx))
  rw [emb12]
  refine (BlockValues.den_block (iblk m c 0 t) (iblk m c 2 t) (iblk m c 3 t) (iblk m c 5 t) (iblk m c 9 t) a b).trans ?_
  show denNext _ _ _ _ = denNext _ _ _ _
  congr 1
  · exact blk3 m c t a b
  · exact projK m c t a b
  · exact blk2 m c t a b
  · exact blk9 m c t b

/-- An index is in point t's block of result 2 iff each coordinate is in the block's range. -/
theorem mem_blk12 (t : Fin cfg0.N) (i : S4096x2048.Idx) :
    i ∈ ((cfg0.win 12).blk t).view.set ↔ ∀ a : Fin 2, win0_12.index t a * S32x2048.size a ≤ (i a).val
      ∧ (i a).val < win0_12.index t a * S32x2048.size a + S32x2048.size a := by
  show i ∈ ((View.whole main_v6_2).slice (win0_12.rect t)).set ↔ _
  rw [View.set_slice_whole, Rect.mem_set_unit]
  exact Iff.rfl

/-- Every index of result 2 lies in the block of the point its row belongs to: row r is in block r / 32. -/
theorem cover12 (i : S4096x2048.Idx) :
    ∃ t : Fin cfg0.N, (cfg0.win 12).flush t = true ∧ i ∈ ((cfg0.win 12).blk t).view.set := by
  have hi0 : (i 0).val < 4096 := (i 0).isLt
  have hi1 : (i 1).val < 2048 := (i 1).isLt
  have hN : (i 0).val / 32 < cfg0.N := by show (i 0).val / 32 < grid0.N; rw [N_0]; omega
  refine ⟨⟨(i 0).val / 32, hN⟩, flush0_12 _, ?_⟩
  obtain ⟨-, -, -, -, -, -, ⟨h0, h1⟩, -⟩ := rowWindows ⟨(i 0).val / 32, hN⟩
  rw [mem_blk12]
  intro a
  match a with
  | ⟨0, _⟩ =>
    show win0_12.index ⟨(i 0).val / 32, hN⟩ (0 : Fin 2) * 32 ≤ (i 0).val
      ∧ (i 0).val < win0_12.index ⟨(i 0).val / 32, hN⟩ (0 : Fin 2) * 32 + 32
    rw [h0]; show (i 0).val / 32 * 32 ≤ (i 0).val ∧ (i 0).val < (i 0).val / 32 * 32 + 32; omega
  | ⟨1, _⟩ =>
    show win0_12.index ⟨(i 0).val / 32, hN⟩ (1 : Fin 2) * 2048 ≤ (i 1).val
      ∧ (i 1).val < win0_12.index ⟨(i 0).val / 32, hN⟩ (1 : Fin 2) * 2048 + 2048
    rw [h1]; omega

/-- After the run result 2 holds the next denominator of the argument arrays. -/
theorem final12 (c : Dev nD) : (dats m 0 c).arrAt 12 cfg0.N = (nextDen (m ((c : Thread nD τ).loc main_arg0)) (m ((c : Thread nD τ).loc main_arg2)) (m ((c : Thread nD τ).loc main_arg3)) (m ((c : Thread nD τ).loc main_arg5)) (m ((c : Thread nD τ).loc main_arg9))) :=
  (dats m 0 c).arrAt_eq_of_cover 12 (nextDen (m ((c : Thread nD τ).loc main_arg0)) (m ((c : Thread nD τ).loc main_arg2)) (m ((c : Thread nD τ).loc main_arg3)) (m ((c : Thread nD τ).loc main_arg5)) (m ((c : Thread nD τ).loc main_arg9))) (fun t _ => flushed12_eq m c t) cover12

/-- Point t writes back block t of the next numerator. -/
theorem flushed11_eq (c : Dev nD) (t : Fin cfg0.N) :
    (dats m 0 c).flushed 11 t = ((cfg0.win 11).blk t).view.read (Elt Ideal) (nextNum (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg9))) := by
  show (cfg0.win 11).cut (grid0.coords t) ((dats m 0 c).after 11 t) = _
  rw [after0_11]
  unfold out0_11
  rw [View.canon_unit_zero hz]
  simp only [View.ld_unit_zero (S := S32x2048) hz, View.ld_unit_zero (S := S2048x2048) hz, View.ld_unit_zero (S := S1x2048) hz]
  funext j
  obtain ⟨a, b, rfl⟩ : ∃ (a : Fin 32) (b : Fin 2048), j = ix2 a b := ⟨j 0, j 1, eq_ix2 j⟩
  show k0_pay4 (F := Ideal) (k0_pay10 (iblk m c 9 t)) (k0_pay12 (iblk m c 0 t) (iblk m c 5 t)) (k0_pay13 (iblk m c 0 t) (iblk m c 6 t)) (iblk m c 1 t) (iblk m c 3 t) (k0_pay19 (iblk m c 9 t)) (ix2 a b)
      = (nextNum (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg9))) (((cfg0.win 11).blk t).view.emb (ix2 a b : S32x2048.Idx))
  rw [emb11]
  refine (BlockValues.num_block (iblk m c 0 t) (iblk m c 1 t) (iblk m c 3 t) (iblk m c 5 t) (iblk m c 6 t) (iblk m c 9 t) a b).trans ?_
  show numNext _ _ _ _ _ = numNext _ _ _ _ _
  congr 1
  · exact blk3 m c t a b
  · exact projK m c t a b
  · exact projV m c t a b
  · exact blk1 m c t a b
  · exact blk9 m c t b

/-- An index is in point t's block of result 1 iff each coordinate is in the block's range. -/
theorem mem_blk11 (t : Fin cfg0.N) (i : S4096x2048.Idx) :
    i ∈ ((cfg0.win 11).blk t).view.set ↔ ∀ a : Fin 2, win0_11.index t a * S32x2048.size a ≤ (i a).val
      ∧ (i a).val < win0_11.index t a * S32x2048.size a + S32x2048.size a := by
  show i ∈ ((View.whole main_v6_1).slice (win0_11.rect t)).set ↔ _
  rw [View.set_slice_whole, Rect.mem_set_unit]
  exact Iff.rfl

/-- Every index of result 1 lies in the block of the point its row belongs to: row r is in block r / 32. -/
theorem cover11 (i : S4096x2048.Idx) :
    ∃ t : Fin cfg0.N, (cfg0.win 11).flush t = true ∧ i ∈ ((cfg0.win 11).blk t).view.set := by
  have hi0 : (i 0).val < 4096 := (i 0).isLt
  have hi1 : (i 1).val < 2048 := (i 1).isLt
  have hN : (i 0).val / 32 < cfg0.N := by show (i 0).val / 32 < grid0.N; rw [N_0]; omega
  refine ⟨⟨(i 0).val / 32, hN⟩, flush0_11 _, ?_⟩
  obtain ⟨-, -, -, -, -, ⟨h0, h1⟩, -⟩ := rowWindows ⟨(i 0).val / 32, hN⟩
  rw [mem_blk11]
  intro a
  match a with
  | ⟨0, _⟩ =>
    show win0_11.index ⟨(i 0).val / 32, hN⟩ (0 : Fin 2) * 32 ≤ (i 0).val
      ∧ (i 0).val < win0_11.index ⟨(i 0).val / 32, hN⟩ (0 : Fin 2) * 32 + 32
    rw [h0]; show (i 0).val / 32 * 32 ≤ (i 0).val ∧ (i 0).val < (i 0).val / 32 * 32 + 32; omega
  | ⟨1, _⟩ =>
    show win0_11.index ⟨(i 0).val / 32, hN⟩ (1 : Fin 2) * 2048 ≤ (i 1).val
      ∧ (i 1).val < win0_11.index ⟨(i 0).val / 32, hN⟩ (1 : Fin 2) * 2048 + 2048
    rw [h1]; omega

/-- After the run result 1 holds the next numerator of the argument arrays. -/
theorem final11 (c : Dev nD) : (dats m 0 c).arrAt 11 cfg0.N = (nextNum (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg9))) :=
  (dats m 0 c).arrAt_eq_of_cover 11 (nextNum (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg9))) (fun t _ => flushed11_eq m c t) cover11

/-- Point t writes back block t of the output rows. -/
theorem flushed10_eq (c : Dev nD) (t : Fin cfg0.N) :
    (dats m 0 c).flushed 10 t = ((cfg0.win 10).blk t).view.read (Elt Ideal) (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 10).cut (grid0.coords t) ((dats m 0 c).after 10 t) = _
  rw [after0_10]
  unfold out0_10
  rw [View.canon_unit_zero hz]
  simp only [View.ld_unit_zero (S := S32x2048) hz, View.ld_unit_zero (S := S2048x2048) hz, View.ld_unit_zero (S := S1x2048) hz]
  funext j
  obtain ⟨a, b, rfl⟩ : ∃ (a : Fin 32) (b : Fin 2048), j = ix2 a b := ⟨j 0, j 1, eq_ix2 j⟩
  show k0_pay6 (F := Ideal) (k0_pay8 (iblk m c 7 t)) (k0_pay11 (iblk m c 0 t) (iblk m c 4 t)) (k0_pay17 (iblk m c 0 t) (iblk m c 5 t) (iblk m c 6 t) (iblk m c 8 t) (iblk m c 1 t) (iblk m c 3 t)) (k0_pay18 (iblk m c 0 t) (iblk m c 5 t) (iblk m c 8 t) (iblk m c 2 t) (iblk m c 3 t)) (ix2 a b)
      = (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (((cfg0.win 10).blk t).view.emb (ix2 a b : S32x2048.Idx))
  rw [emb10]
  refine (BlockValues.out_block (iblk m c 0 t) (iblk m c 1 t) (iblk m c 2 t) (iblk m c 3 t) (iblk m c 4 t) (iblk m c 5 t) (iblk m c 6 t) (iblk m c 7 t) (iblk m c 8 t) a b).trans ?_
  show _ = ∑ j : Fin 2048, gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (row t a) j
      * (m ((c : Thread nD τ).loc main_arg7)) (ix2 b j)
  refine Finset.sum_congr rfl fun j _ => congrArg₂ (· * ·) ?_ (blk7 m c t b j)
  show gated _ _ _ _ _ _ _ = gated _ _ _ _ _ _ _
  congr 1
  · exact projR m c t a j
  · exact blk3 m c t a j
  · exact projK m c t a j
  · exact projV m c t a j
  · exact blk1 m c t a j
  · exact blk2 m c t a j
  · exact blk8 m c t j

/-- An index is in point t's block of result 0 iff each coordinate is in the block's range. -/
theorem mem_blk10 (t : Fin cfg0.N) (i : S4096x2048.Idx) :
    i ∈ ((cfg0.win 10).blk t).view.set ↔ ∀ a : Fin 2, win0_10.index t a * S32x2048.size a ≤ (i a).val
      ∧ (i a).val < win0_10.index t a * S32x2048.size a + S32x2048.size a := by
  show i ∈ ((View.whole main_v6_0).slice (win0_10.rect t)).set ↔ _
  rw [View.set_slice_whole, Rect.mem_set_unit]
  exact Iff.rfl

/-- Every index of result 0 lies in the block of the point its row belongs to: row r is in block r / 32. -/
theorem cover10 (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  have hN : (i 0).val / 32 < cfg0.N := by show (i 0).val / 32 < grid0.N; rw [N_0]; omega
  refine ⟨⟨(i 0).val / 32, hN⟩, flush0_10 _, ?_⟩
  obtain ⟨-, -, -, -, ⟨h0, h1⟩, -⟩ := rowWindows ⟨(i 0).val / 32, hN⟩
  rw [mem_blk10]
  intro a
  match a with
  | ⟨0, _⟩ =>
    show win0_10.index ⟨(i 0).val / 32, hN⟩ (0 : Fin 2) * 32 ≤ (i 0).val
      ∧ (i 0).val < win0_10.index ⟨(i 0).val / 32, hN⟩ (0 : Fin 2) * 32 + 32
    rw [h0]; show (i 0).val / 32 * 32 ≤ (i 0).val ∧ (i 0).val < (i 0).val / 32 * 32 + 32; omega
  | ⟨1, _⟩ =>
    show win0_10.index ⟨(i 0).val / 32, hN⟩ (1 : Fin 2) * 2048 ≤ (i 1).val
      ∧ (i 1).val < win0_10.index ⟨(i 0).val / 32, hN⟩ (1 : Fin 2) * 2048 + 2048
    rw [h1]; omega

/-- After the run result 0 holds the output rows of the argument arrays. -/
theorem final10 (c : Dev nD) : (dats m 0 c).arrAt 10 cfg0.N = (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (dats m 0 c).arrAt_eq_of_cover 10 (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed10_eq m c t) cover10

/-! ## The run -/

/-- Every weakly fair execution of the idealized kernel terminates with the four result arrays at the functions of
    `Cert.Wkv` of the argument arrays — the output rows, n', d', s' — and the arguments as they were. The first four
    clauses are the frame run's result arrays read through the blocks (`final10` … `final13`); the others say that an
    array a window only stages, or that no window touches, is left alone. -/
theorem run (ρ : Dev nD → PrngReg) :
    θ_run defs (onTc (τ := τ) (main (F := Ideal))) ⟨m, fun _ => 0, ρ⟩ fun r => ∀ c : Dev nD,
      r.2.mem ((c : Thread nD τ).loc main_v6_0) = (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      ∧ r.2.mem ((c : Thread nD τ).loc main_v6_1) = (nextNum (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg9)))
      ∧ r.2.mem ((c : Thread nD τ).loc main_v6_2) = (nextDen (m ((c : Thread nD τ).loc main_arg0)) (m ((c : Thread nD τ).loc main_arg2)) (m ((c : Thread nD τ).loc main_arg3)) (m ((c : Thread nD τ).loc main_arg5)) (m ((c : Thread nD τ).loc main_arg9)))
      ∧ r.2.mem ((c : Thread nD τ).loc main_v6_3) = (nextScale (m ((c : Thread nD τ).loc main_arg0)) (m ((c : Thread nD τ).loc main_arg3)) (m ((c : Thread nD τ).loc main_arg5)) (m ((c : Thread nD τ).loc main_arg9)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (final10 m c),
      ((h c).1 11).trans (final11 m c),
      ((h c).1 12).trans (final12 m c),
      ((h c).1 13).trans (final13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Arrays

end
-- ==== Proof.LibLogistic.lean ====
/-
  General lemmas about the logistic function on the extended reals, for programs that spell it out.

  * `one_word`: the single-precision word 0x3F800000 (the literal 1.0) denotes the real 1.
  * `logistic_spelt`: the quotient 1 / (1 + e^(−r)), with both ones given by that word, the quotient the extended reals'
    total one and the exponential the exact one, is the logistic function of r — for every extended real r, the two
    infinities included, since the logistic function is defined there as exactly this quotient.
-/
import Idealize.ShloMosaic.PureOps.Ideal

noncomputable section

namespace Cert.Logistic

open Idealize.ShloMosaic

/-- The single-precision word of 1.0 denotes the real 1. -/
theorem one_word : Ideal.ofBits .f32 0x3F800000#32 = 1 := by
  simp [Ideal.ofBits, Ideal.ieee, -EReal.coe_mul]; norm_num

/-- 1 / (1 + e^(−r)) with both ones given by their word is the logistic function of r. -/
theorem logistic_spelt (r : EReal) :
    Ideal.div (Ideal.ofBits .f32 0x3F800000#32) (Ideal.ofBits .f32 0x3F800000#32 + Ideal.exp (-r)) = Ideal.logistic r := by
  rw [one_word]; rfl

end Cert.Logistic

end
-- ==== Proof.RefWkv.lean ====
/-
  The reference program's four results are the functions of `Cert.Wkv` of its argument arrays.

  Read one operation at a time, every result entry is built from three kinds of stage: a product of the input rows with a
  transposed weight matrix, which at (p, q) is the sum over the row of x (p, k) · w (q, k) (the transpose only swaps the
  weight's two coordinates); a per-column vector repeated down the rows, which at (p, q) reads its entry q; and operations
  acting entry by entry. The reference spells the logistic function as 1 / (1 + e^(−r)) with the literal 1.0, which is the
  same function (`Cert.Logistic.logistic_spelt`). Nothing else stands between its text and the specification.
-/
import proofs.«136066_j58617713656063_1_alg».proof.Proof.Gen.ReferenceIdeal.Read
import proofs.«136066_j58617713656063_1_alg».proof.Proof.Wkv
import proofs.«136066_j58617713656063_1_alg».proof.Proof.LibLogistic

noncomputable section

open scoped BigOperators

namespace Cert.ReferenceIdeal.RefValue

open Cert.ReferenceIdeal Cert.ReferenceIdeal.Read Idealize.ShloMosaic Idealize.ShloMosaic.ValueIdx Cert.Wkv

/-- A batch-shaped argument. -/
abbrev ARows := (⟨S4096x2048, .f32⟩ : BufTy).Contents (Elt Ideal)
/-- A square weight argument. -/
abbrev ASq := (⟨S2048x2048, .f32⟩ : BufTy).Contents (Elt Ideal)
/-- A per-column argument. -/
abbrev ALane := (⟨S2048, .f32⟩ : BufTy).Contents (Elt Ideal)

/-! ## The three projections -/

/-- x·w_rᵀ, before the logistic function. -/
theorem recept_pre (x0 : ARows) (x4 : ASq) (p : Fin 4096) (q : Fin 2048) :
    val_main_v1 (F := Ideal) x0 x4 (ix2 p q) = proj x0 x4 p q := by
  rw [val_main_v1_apply]
  show _ = ∑ k : Fin 2048, x0 (ix2 p k) * x4 (ix2 q k)
  refine Finset.sum_congr rfl fun k _ => ?_
  have e1 : lidx_main_v1 (ix2 p q) k = ix2 p k := funext fun a => Fin.ext (by match a with | ⟨0, _⟩ => rfl | ⟨1, _⟩ => rfl)
  have e2 : idx_main_v0 (ridx_main_v1 (ix2 p q) k) = ix2 q k := funext fun a => Fin.ext (by match a with | ⟨0, _⟩ => rfl | ⟨1, _⟩ => rfl)
  rw [val_main_v0_apply, e1, e2]

/-- The key x·w_kᵀ. -/
theorem key_at (x0 : ARows) (x5 : ASq) (p : Fin 4096) (q : Fin 2048) :
    val_main_v9 (F := Ideal) x0 x5 (ix2 p q) = proj x0 x5 p q := by
  rw [val_main_v9_apply]
  show _ = ∑ k : Fin 2048, x0 (ix2 p k) * x5 (ix2 q k)
  refine Finset.sum_congr rfl fun k _ => ?_
  have e1 : lidx_main_v9 (ix2 p q) k = ix2 p k := funext fun a => Fin.ext (by match a with | ⟨0, _⟩ => rfl | ⟨1, _⟩ => rfl)
  have e2 : idx_main_v8 (ridx_main_v9 (ix2 p q) k) = ix2 q k := funext fun a => Fin.ext (by match a with | ⟨0, _⟩ => rfl | ⟨1, _⟩ => rfl)
  rw [val_main_v8_apply, e1, e2]

/-- The value x·w_vᵀ. -/
theorem value_at (x0 : ARows) (x6 : ASq) (p : Fin 4096) (q : Fin 2048) :
    val_main_v11 (F := Ideal) x0 x6 (ix2 p q) = proj x0 x6 p q := by
  rw [val_main_v11_apply]
  show _ = ∑ k : Fin 2048, x0 (ix2 p k) * x6 (ix2 q k)
  refine Finset.sum_congr rfl fun k _ => ?_
  have e1 : lidx_main_v11 (ix2 p q) k = ix2 p k := funext fun a => Fin.ext (by match a with | ⟨0, _⟩ => rfl | ⟨1, _⟩ => rfl)
  have e2 : idx_main_v10 (ridx_main_v11 (ix2 p q) k) = ix2 q k := funext fun a => Fin.ext (by match a with | ⟨0, _⟩ => rfl | ⟨1, _⟩ => rfl)
  rw [val_main_v10_apply, e1, e2]

/-! ## The per-column vectors repeated down the rows -/

theorem bonus13 (x8 : ALane) (p : Fin 4096) (q : Fin 2048) : val_main_v13 (F := Ideal) x8 (ix2 p q) = x8 (ix1 q) := by
  rw [val_main_v13_apply, val_main_v12_apply]
  exact congrArg x8 (funext fun a => Fin.ext (by match a with | ⟨0, _⟩ => rfl))

theorem bonus19 (x8 : ALane) (p : Fin 4096) (q : Fin 2048) : val_main_v19 (F := Ideal) x8 (ix2 p q) = x8 (ix1 q) := by
  rw [val_main_v19_apply, val_main_v18_apply]
  exact congrArg x8 (funext fun a => Fin.ext (by match a with | ⟨0, _⟩ => rfl))

theorem decay29 (x9 : ALane) (p : Fin 4096) (q : Fin 2048) : val_main_v29 (F := Ideal) x9 (ix2 p q) = x9 (ix1 q) := by
  rw [val_main_v29_apply, val_main_v28_apply]
  exact congrArg x9 (funext fun a => Fin.ext (by match a with | ⟨0, _⟩ => rfl))

theorem decay33 (x9 : ALane) (p : Fin 4096) (q : Fin 2048) : val_main_v33 (F := Ideal) x9 (ix2 p q) = x9 (ix1 q) := by
  rw [val_main_v33_apply, val_main_v32_apply]
  exact congrArg x9 (funext fun a => Fin.ext (by match a with | ⟨0, _⟩ => rfl))

/-! ## The state update -/

/-- s' at an entry. -/
theorem nextScale_at (x0 x3 : ARows) (x5 : ASq) (x9 : ALane) (p : Fin 4096) (q : Fin 2048) :
    val_main_v31 (F := Ideal) x0 x3 x5 x9 (ix2 p q) = scaleNext (x3 (ix2 p q)) (proj x0 x5 p q) (x9 (ix1 q)) := by
  show max (x3 (ix2 p q) + val_main_v29 (F := Ideal) x9 (ix2 p q)) (val_main_v9 (F := Ideal) x0 x5 (ix2 p q)) = _
  rw [decay29, key_at]
  rfl

/-- The fourth result is s'. -/
theorem nextScale_eq (x0 x3 : ARows) (x5 : ASq) (x9 : ALane) :
    val_main_v31 (F := Ideal) x0 x3 x5 x9 = nextScale x0 x3 x5 x9 := by
  funext i
  obtain ⟨p, q, rfl⟩ : ∃ (p : Fin 4096) (q : Fin 2048), i = ix2 p q := ⟨i 0, i 1, eq_ix2 i⟩
  exact nextScale_at x0 x3 x5 x9 p q

/-- The second result is n'. -/
theorem nextNum_eq (x0 x1 x3 : ARows) (x5 x6 : ASq) (x9 : ALane) :
    val_main_v41 (F := Ideal) x0 x1 x3 x5 x6 x9 = nextNum x0 x1 x3 x5 x6 x9 := by
  funext i
  obtain ⟨p, q, rfl⟩ : ∃ (p : Fin 4096) (q : Fin 2048), i = ix2 p q := ⟨i 0, i 1, eq_ix2 i⟩
  show Ideal.exp (x3 (ix2 p q) + val_main_v33 (F := Ideal) x9 (ix2 p q) - val_main_v31 (F := Ideal) x0 x3 x5 x9 (ix2 p q)) * x1 (ix2 p q)
      + Ideal.exp (val_main_v9 (F := Ideal) x0 x5 (ix2 p q) - val_main_v31 (F := Ideal) x0 x3 x5 x9 (ix2 p q))
          * val_main_v11 (F := Ideal) x0 x6 (ix2 p q) = _
  rw [nextScale_at, decay33, key_at, value_at]
  rfl

/-- The third result is d'. -/
theorem nextDen_eq (x0 x2 x3 : ARows) (x5 : ASq) (x9 : ALane) :
    val_main_v43 (F := Ideal) x0 x2 x3 x5 x9 = nextDen x0 x2 x3 x5 x9 := by
  funext i
  obtain ⟨p, q, rfl⟩ : ∃ (p : Fin 4096) (q : Fin 2048), i = ix2 p q := ⟨i 0, i 1, eq_ix2 i⟩
  show Ideal.exp (x3 (ix2 p q) + val_main_v33 (F := Ideal) x9 (ix2 p q) - val_main_v31 (F := Ideal) x0 x3 x5 x9 (ix2 p q)) * x2 (ix2 p q)
      + Ideal.exp (val_main_v9 (F := Ideal) x0 x5 (ix2 p q) - val_main_v31 (F := Ideal) x0 x3 x5 x9 (ix2 p q)) = _
  rw [nextScale_at, decay33, key_at]
  rfl

/-! ## The output path -/

/-- The scale of the output path at an entry: sₜ = max s (w_u + k). -/
theorem outScale_at (x0 x3 : ARows) (x5 : ASq) (x8 : ALane) (p : Fin 4096) (j : Fin 2048) :
    val_main_v15 (F := Ideal) x0 x3 x5 x8 (ix2 p j) = scaleOut (x3 (ix2 p j)) (proj x0 x5 p j) (x8 (ix1 j)) := by
  show max (x3 (ix2 p j)) (val_main_v13 (F := Ideal) x8 (ix2 p j) + val_main_v9 (F := Ideal) x0 x5 (ix2 p j)) = _
  rw [bonus13, key_at]
  rfl

/-- The receptance: 1 / (1 + e^(−r)) as the reference spells it is σ(r). -/
theorem recept_at (x0 : ARows) (x4 : ASq) (p : Fin 4096) (j : Fin 2048) :
    val_main_v7 (F := Ideal) x0 x4 (ix2 p j) = Ideal.logistic (proj x0 x4 p j) := by
  rw [val_main_v7_apply, val_main_v6_apply, val_main_cst_0_apply, val_main_v5_apply, val_main_v4_apply, val_main_cst_apply,
    val_main_v3_apply, val_main_v2_apply, recept_pre]
  exact Cert.Logistic.logistic_spelt _

/-- The gated quotient at an entry. -/
theorem gate_at (x0 x1 x2 x3 : ARows) (x4 x5 x6 : ASq) (x8 : ALane) (p : Fin 4096) (j : Fin 2048) :
    val_main_v45 (F := Ideal) x0 x1 x2 x3 x4 x5 x6 x8 (ix2 p j) = gate x0 x1 x2 x3 x4 x5 x6 x8 p j := by
  show val_main_v7 (F := Ideal) x0 x4 (ix2 p j)
      * Ideal.div
          (Ideal.exp (x3 (ix2 p j) - val_main_v15 (F := Ideal) x0 x3 x5 x8 (ix2 p j)) * x1 (ix2 p j)
            + Ideal.exp (val_main_v19 (F := Ideal) x8 (ix2 p j) + val_main_v9 (F := Ideal) x0 x5 (ix2 p j)
                - val_main_v15 (F := Ideal) x0 x3 x5 x8 (ix2 p j)) * val_main_v11 (F := Ideal) x0 x6 (ix2 p j))
          (Ideal.exp (x3 (ix2 p j) - val_main_v15 (F := Ideal) x0 x3 x5 x8 (ix2 p j)) * x2 (ix2 p j)
            + Ideal.exp (val_main_v19 (F := Ideal) x8 (ix2 p j) + val_main_v9 (F := Ideal) x0 x5 (ix2 p j)
                - val_main_v15 (F := Ideal) x0 x3 x5 x8 (ix2 p j))) = _
  rw [recept_at, outScale_at, bonus19, key_at, value_at]
  rfl

/-- The first result is the output rows. -/
theorem output_eq (x0 x1 x2 x3 : ARows) (x4 x5 x6 x7 : ASq) (x8 : ALane) :
    val_main_v47 (F := Ideal) x0 x1 x2 x3 x4 x5 x6 x7 x8 = output x0 x1 x2 x3 x4 x5 x6 x7 x8 := by
  funext i
  obtain ⟨p, q, rfl⟩ : ∃ (p : Fin 4096) (q : Fin 2048), i = ix2 p q := ⟨i 0, i 1, eq_ix2 i⟩
  rw [val_main_v47_apply]
  show _ = ∑ k : Fin 2048, gate x0 x1 x2 x3 x4 x5 x6 x8 p k * x7 (ix2 q k)
  refine Finset.sum_congr rfl fun k _ => ?_
  have e1 : lidx_main_v47 (ix2 p q) k = ix2 p k := funext fun a => Fin.ext (by match a with | ⟨0, _⟩ => rfl | ⟨1, _⟩ => rfl)
  have e2 : idx_main_v46 (ridx_main_v47 (ix2 p q) k) = ix2 q k := funext fun a => Fin.ext (by match a with | ⟨0, _⟩ => rfl | ⟨1, _⟩ => rfl)
  rw [val_main_v46_apply, e1, e2, gate_at]

end Cert.ReferenceIdeal.RefValue

end
-- ==== Proof.lean ====
/-
  The certificate of one RWKV "WKV" time step over a batch of 4096 rows of width 2048: the kernel (32 rows per grid point,
  128 points, the four weight matrices held whole) against the plain array program.

  Both programs take three projections of the input rows against transposed weight matrices, update the state
  (numerator, denominator, log-scale) with a decay, and return the receptance-gated quotient of the bonus-weighted
  state against a fourth transposed matrix. On the extended reals the two texts are the same expression, operation for
  operation and in the same order: a matrix product into a zero accumulator and a product with an explicitly transposed
  matrix are both the plain sum over the row; a change of float format is the identity; and the logistic function the
  kernel applies is, by its definition there, the quotient 1 / (1 + e^(−r)) the array program spells. So no law of
  arithmetic is used and the precondition (finite inputs) is never opened.

    * `Cert.Wkv`: the four results as whole-array functions of the arguments.
    * `Cert.ReferenceIdeal.RefValue`: the array program's results are those functions.
    * `Cert.KernelIdeal.BlockValues`: what one grid point computes from its blocks, entry by entry.
    * `Cert.KernelIdeal.Arrays`: the 128 blocks of 32 rows tile each result array, which therefore ends as the same function.

  The three frame claims are the generated frame runs; the idealization rewrote no operation, so its claim is trivial.
-/
import proofs.«136066_j58617713656063_1_alg».proof.Defs
import proofs.«136066_j58617713656063_1_alg».proof.Proof.Gen.Kernel
import proofs.«136066_j58617713656063_1_alg».proof.Proof.Gen.Kernel.Skeleton
import proofs.«136066_j58617713656063_1_alg».proof.Proof.Gen.Kernel.Launch
import proofs.«136066_j58617713656063_1_alg».proof.Proof.Gen.Kernel.Points
import proofs.«136066_j58617713656063_1_alg».proof.Proof.Gen.Kernel.Frame
import proofs.«136066_j58617713656063_1_alg».proof.Proof.Gen.KernelIdeal
import proofs.«136066_j58617713656063_1_alg».proof.Proof.Gen.KernelIdeal.Skeleton
import proofs.«136066_j58617713656063_1_alg».proof.Proof.Gen.KernelIdeal.Launch
import proofs.«136066_j58617713656063_1_alg».proof.Proof.Gen.KernelIdeal.Points
import proofs.«136066_j58617713656063_1_alg».proof.Proof.Gen.KernelIdeal.Frame
import proofs.«136066_j58617713656063_1_alg».proof.Proof.Gen.ReferenceIdeal
import proofs.«136066_j58617713656063_1_alg».proof.Proof.Gen.Pre_finite_inputs
import proofs.«136066_j58617713656063_1_alg».proof.Proof.Gen.ReferenceIdeal.Run
import proofs.«136066_j58617713656063_1_alg».proof.Proof.Gen.ReferenceIdeal.Read
import proofs.«136066_j58617713656063_1_alg».proof.Proof.Arrays
import proofs.«136066_j58617713656063_1_alg».proof.Proof.RefWkv
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The array program's run, with its four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From memories agreeing on the arguments both programs end with the four functions of `Cert.Wkv` of those arguments:
    the kernel by `Arrays.run`, the array program by its run read back as those functions (`RefValue`). -/
theorem algebraic : Cert.algebraic_KernelIdeal_ReferenceIdeal := by
  intro m ρ m' ρ' _ hagree
  refine ⟨_, _, _, _, Cert.KernelIdeal.Arrays.run m ρ, ?_⟩
  refine (θ_run Cert.ReferenceIdeal.defs _ _).mono (fun _ h c => ?_) (Cert.ReferenceIdeal.Value.run (F := Ideal) m' ρ')
  obtain ⟨h47, h41, h43, h31, hargs⟩ := h c
  obtain ⟨a0, a1, a2, a3, a4, a5, a6, a7, a8, a9⟩ := hagree c
  refine ⟨h47.trans ?_, h41.trans ?_, h43.trans ?_, h31.trans ?_, hargs⟩
  · rw [Cert.ReferenceIdeal.Read.val_main_v47_eq, Cert.ReferenceIdeal.RefValue.output_eq, a0, a1, a2, a3, a4, a5, a6, a7, a8]
  · rw [Cert.ReferenceIdeal.Read.val_main_v41_eq, Cert.ReferenceIdeal.RefValue.nextNum_eq, a0, a1, a3, a5, a6, a9]
  · rw [Cert.ReferenceIdeal.Read.val_main_v43_eq, Cert.ReferenceIdeal.RefValue.nextDen_eq, a0, a2, a3, a5, a9]
  · rw [Cert.ReferenceIdeal.Read.val_main_v31_eq, Cert.ReferenceIdeal.RefValue.nextScale_eq, a0, a3, a5, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
